-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x64 : Shape := ⟨2, ![256, 64]⟩
abbrev S1x64 : Shape := ⟨2, ![1, 64]⟩
abbrev S64x16 : Shape := ⟨2, ![64, 16]⟩
abbrev S1x16 : Shape := ⟨2, ![1, 16]⟩
abbrev S16x4 : Shape := ⟨2, ![16, 4]⟩
abbrev S1x4 : Shape := ⟨2, ![1, 4]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S1x64 : S_.BroadcastsInDim S1x64 (![] : Fin 0 → Fin S1x64.rank)
  reducesTo_S1x64_S_d0_1 : S1x64.ReducesTo [0, 1] S_
  bcast_S_S64x16 : S_.BroadcastsInDim S64x16 (![] : Fin 0 → Fin S64x16.rank)
  reducesTo_S64x16_S_d0_1 : S64x16.ReducesTo [0, 1] S_
  bcast_S_S1x16 : S_.BroadcastsInDim S1x16 (![] : Fin 0 → Fin S1x16.rank)
  reducesTo_S1x16_S_d0_1 : S1x16.ReducesTo [0, 1] S_
  bcast_S_S16x4 : S_.BroadcastsInDim S16x4 (![] : Fin 0 → Fin S16x4.rank)
  reducesTo_S16x4_S_d0_1 : S16x4.ReducesTo [0, 1] S_
  bcast_S_S1x4 : S_.BroadcastsInDim S1x4 (![] : Fin 0 → Fin S1x4.rank)
  reducesTo_S1x4_S_d0_1 : S1x4.ReducesTo [0, 1] S_

variable [Facts]

def fn_part1 {F : FTy → Type} [FloatOps F] (main_arg4 : FVec F S1x16 .f32) (main_arg5 : FVec F S16x4 .f32) (main_arg6 : FVec F S1x4 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S16x4 .f32 := Host.absf main_arg5
  let main_cst_8 : FVec F S_ .f32 := constant S_ .f32 0x7F800000#32
  let main_v25 : FVec F S16x4 .f32 := broadcastInDim S16x4 ![] bcast_S_S16x4 main_cst_8
  let main_v26 : IVec S16x4 1 := cmpf .olt main_v24 main_v25
  let main_c_9 : IVec S_ 1 := constantI S_ 1 1#1
  let main_v27 : IVec S_ 1 := (fun x v => Host.reduce IntOp.andi x v reducesTo_S16x4_S_d0_1 h_S_) main_v26 main_c_9
  let main_v28 : IVec S_ 1 := andi main_v23 main_v27
  let main_v29 : FVec F S1x4 .f32 := Host.absf main_arg6
  let main_cst_10 : FVec F S_ .f32 := constant S_ .f32 0x7F800000#32
  let main_v30 : FVec F S1x4 .f32 := broadcastInDim S1x4 ![] bcast_S_S1x4 main_cst_10
  let main_v31 : IVec S1x4 1 := cmpf .olt main_v29 main_v30
  let main_c_11 : IVec S_ 1 := constantI S_ 1 1#1
  let main_v32 : IVec S_ 1 := (fun x v => Host.reduce IntOp.andi x v reducesTo_S1x4_S_d0_1 h_S_) main_v31 main_c_11
  let main_v33 : IVec S_ 1 := andi main_v28 main_v32
  main_v33

def fn {F : FTy → Type} [FloatOps F] (main_arg0 : FVec F S131072x256 .f32) (main_arg1 : FVec F S256x64 .f32) (main_arg2 : FVec F S1x64 .f32) (main_arg3 : FVec F S64x16 .f32) (main_arg4 : FVec F S1x16 .f32) (main_arg5 : FVec F S16x4 .f32) (main_arg6 : FVec F S1x4 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_arg6 main_v13 main_v16
-- ==== Kernel.lean ====
abbrev S131072x256 : Shape := ⟨2, ![131072, 256]⟩
abbrev S256x64 : Shape := ⟨2, ![256, 64]⟩
abbrev S1x64 : Shape := ⟨2, ![1, 64]⟩
abbrev S64x16 : Shape := ⟨2, ![64, 16]⟩
abbrev S1x16 : Shape := ⟨2, ![1, 16]⟩
abbrev S16x4 : Shape := ⟨2, ![16, 4]⟩
abbrev S1x4 : Shape := ⟨2, ![1, 4]⟩
abbrev S131072x4 : Shape := ⟨2, ![131072, 4]⟩
abbrev S8192x256 : Shape := ⟨2, ![8192, 256]⟩
abbrev S8192x4 : Shape := ⟨2, ![8192, 4]⟩
abbrev S8192x64 : Shape := ⟨2, ![8192, 64]⟩
abbrev S8192x16 : Shape := ⟨2, ![8192, 16]⟩
abbrev S524288 : Shape := ⟨1, ![524288]⟩
abbrev S_ : Shape := ⟨0, ![]⟩
abbrev S1 : Shape := ⟨1, ![1]⟩

abbrev nBuf : Space → Nat
  | .hbm => 23
  | .vmem => 10
  | .smem => 0
  | _ => 0

abbrev bufTy : (tb : Table) → Fin (tcTables nBuf tb) → BufTy
  | .hbm, ⟨0, _⟩ => ⟨S131072x256, .f32⟩
  | .hbm, ⟨1, _⟩ => ⟨S256x64, .f32⟩
  | .hbm, ⟨2, _⟩ => ⟨S1x64, .f32⟩
  | .hbm, ⟨3, _⟩ => ⟨S64x16, .f32⟩
  | .hbm, ⟨4, _⟩ => ⟨S1x16, .f32⟩
  | .hbm, ⟨5, _⟩ => ⟨S16x4, .f32⟩
  | .hbm, ⟨6, _⟩ => ⟨S1x4, .f32⟩
  | .hbm, ⟨7, _⟩ => ⟨S131072x4, .f32⟩
  | .hbm, ⟨8, _⟩ => ⟨S524288, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S524288, .f32⟩
  | .hbm, ⟨15, _⟩ => ⟨S524288, .f32⟩
  | .hbm, ⟨16, _⟩ => ⟨S524288, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S524288, .f32⟩
  | .hbm, ⟨21, _⟩ => ⟨S524288, .f32⟩
  | .hbm, ⟨22, _⟩ => ⟨S131072x4, .f32⟩
  | .local _ .vmem, ⟨0, _⟩ => ⟨S8192x256, .f32⟩
  | .local _ .vmem, ⟨1, _⟩ => ⟨S8192x256, .f32⟩
  | .local _ .vmem, ⟨2, _⟩ => ⟨S256x64, .f32⟩
  | .local _ .vmem, ⟨3, _⟩ => ⟨S1x64, .f32⟩
  | .local _ .vmem, ⟨4, _⟩ => ⟨S64x16, .f32⟩
  | .local _ .vmem, ⟨5, _⟩ => ⟨S1x16, .f32⟩
  | .local _ .vmem, ⟨6, _⟩ => ⟨S16x4, .f32⟩
  | .local _ .vmem, ⟨7, _⟩ => ⟨S1x4, .f32⟩
  | .local _ .vmem, ⟨8, _⟩ => ⟨S8192x4, .f32⟩
  | .local _ .vmem, ⟨9, _⟩ => ⟨S8192x4, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S8192x256_S8192x256_0_0 : ∀ a, (![0, 0] : Fin 2 → Nat) a + S8192x256.size a ≤ S8192x256.size a
  h_S8192x256 : 0 < S8192x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  broadcasts_S1x64_S8192x64 : S1x64.Broadcasts S8192x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  broadcasts_S1x16_S8192x16 : S1x16.Broadcasts S8192x16
  inb_S16x4_S16x4_0_0 : ∀ a, (![0, 0] : Fin 2 → Nat) a + S16x4.size a ≤ S16x4.size a
  h_S16x4 : 0 < S16x4.numel
  inb_S1x4_S1x4_0_0 : ∀ a, (![0, 0] : Fin 2 → Nat) a + S1x4.size a ≤ S1x4.size a
  h_S1x4 : 0 < S1x4.numel
  broadcasts_S1x4_S8192x4 : S1x4.Broadcasts S8192x4
  inb_S8192x4_S8192x4_0_0 : ∀ a, (![0, 0] : Fin 2 → Nat) a + S8192x4.size a ≤ S8192x4.size a
  h_S8192x4 : 0 < S8192x4.numel
  shapeCasts_S131072x4_S524288 : S131072x4.ShapeCasts S524288
  reducesTo_S524288_S_d0 : S524288.ReducesTo [0] S_
  h_S_ : 0 < S_.numel
  bcast_S_S1 : S_.BroadcastsInDim S1 (![] : Fin 0 → Fin S1.rank)
  bcast_S1_S524288_0 : S1.BroadcastsInDim S524288 (![0] : Fin 1 → Fin S524288.rank)
  shapeCasts_S524288_S131072x4 : S524288.ShapeCasts S131072x4
  dot_S8192x256_S256x64_S8192x64_1_0_0_1_n_n_wf : DotDims.WF S8192x256 S256x64 S8192x64 [1] [0] [0] [1] [] []
  dot_S8192x64_S64x16_S8192x16_1_0_0_1_n_n_wf : DotDims.WF S8192x64 S64x16 S8192x16 [1] [0] [0] [1] [] []
  dot_S8192x16_S16x4_S8192x4_1_0_0_1_n_n_wf : DotDims.WF S8192x16 S16x4 S8192x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S131072x256.size a
  hwx0_0 : ∀ i : grid0.Coords, EltTy.bits .f32 = 32 ∨ (Rect.block (s := S131072x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x4.size a ≤ S16x4.size a
  hwx0_5 : ∀ i : grid0.Coords, EltTy.bits .f32 = 32 ∨ (Rect.block (s := S16x4) S16x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x4.size a ≤ S131072x4.size a
  hwx0_7 : ∀ i : grid0.Coords, EltTy.bits .f32 = 32 ∨ (Rect.block (s := S131072x4) S8192x4.size (cc0_transform_7 i) (hinb0_7 i)).WholeWords (EltTy.packing .f32)

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def dot_S8192x16_S16x4_S8192x4_1_0_0_1_n_n : DotDims S8192x16 S16x4 S8192x4 where
  lhsContracting := [1]
  rhsContracting := [0]
  lhsNonContracting := [0]
  rhsNonContracting := [1]
  lhsBatch := []
  rhsBatch := []
  wf := dot_S8192x16_S16x4_S8192x4_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S8192x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x64 : Shape := ⟨2, ![256, 64]⟩
abbrev S1x64 : Shape := ⟨2, ![1, 64]⟩
abbrev S64x16 : Shape := ⟨2, ![64, 16]⟩
abbrev S1x16 : Shape := ⟨2, ![1, 16]⟩
abbrev S16x4 : Shape := ⟨2, ![16, 4]⟩
abbrev S1x4 : Shape := ⟨2, ![1, 4]⟩
abbrev S131072x64 : Shape := ⟨2, ![131072, 64]⟩
abbrev S_ : Shape := ⟨0, ![]⟩
abbrev S131072x16 : Shape := ⟨2, ![131072, 16]⟩
abbrev S131072x4 : Shape := ⟨2, ![131072, 4]⟩
abbrev S524288 : Shape := ⟨1, ![524288]⟩
abbrev S1 : Shape := ⟨1, ![1]⟩

abbrev nBuf : Space → Nat
  | .hbm => 35
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256x64, .f32⟩
  | .hbm, ⟨2, _⟩ => ⟨S1x64, .f32⟩
  | .hbm, ⟨3, _⟩ => ⟨S64x16, .f32⟩
  | .hbm, ⟨4, _⟩ => ⟨S1x16, .f32⟩
  | .hbm, ⟨5, _⟩ => ⟨S16x4, .f32⟩
  | .hbm, ⟨6, _⟩ => ⟨S1x4, .f32⟩
  | .hbm, ⟨7, _⟩ => ⟨S131072x64, .f32⟩
  | .hbm, ⟨8, _⟩ => ⟨S131072x64, .f32⟩
  | .hbm, ⟨9, _⟩ => ⟨S131072x64, .f32⟩
  | .hbm, ⟨10, _⟩ => ⟨S_, .f32⟩
  | .hbm, ⟨11, _⟩ => ⟨S131072x64, .f32⟩
  | .hbm, ⟨12, _⟩ => ⟨S131072x64, .f32⟩
  | .hbm, ⟨13, _⟩ => ⟨S131072x16, .f32⟩
  | .hbm, ⟨14, _⟩ => ⟨S131072x16, .f32⟩
  | .hbm, ⟨15, _⟩ => ⟨S131072x16, .f32⟩
  | .hbm, ⟨16, _⟩ => ⟨S131072x16, .f32⟩
  | .hbm, ⟨17, _⟩ => ⟨S131072x4, .f32⟩
  | .hbm, ⟨18, _⟩ => ⟨S131072x4, .f32⟩
  | .hbm, ⟨19, _⟩ => ⟨S131072x4, .f32⟩
  | .hbm, ⟨20, _⟩ => ⟨S524288, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S524288, .f32⟩
  | .hbm, ⟨27, _⟩ => ⟨S524288, .f32⟩
  | .hbm, ⟨28, _⟩ => ⟨S524288, .f32⟩
  | .hbm, ⟨29, _⟩ => ⟨S_, .f32⟩
  | .hbm, ⟨30, _⟩ => ⟨S_, .f32⟩
  | .hbm, ⟨31, _⟩ => ⟨S1, .f32⟩
  | .hbm, ⟨32, _⟩ => ⟨S524288, .f32⟩
  | .hbm, ⟨33, _⟩ => ⟨S524288, .f32⟩
  | .hbm, ⟨34, _⟩ => ⟨S131072x4, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_cst : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S1x16_S131072x16_0_1 : S1x16.BroadcastsInDim S131072x16 (![0, 1] : Fin 2 → Fin S131072x16.rank)
  bcast_S1x4_S131072x4_0_1 : S1x4.BroadcastsInDim S131072x4 (![0, 1] : Fin 2 → Fin S131072x4.rank)
  shapeCasts_S131072x4_S524288 : S131072x4.ShapeCasts S524288
  reducesTo_S524288_S_d0 : S524288.ReducesTo [0] S_
  h_S_ : 0 < S_.numel
  bcast_S_S1 : S_.BroadcastsInDim S1 (![] : Fin 0 → Fin S1.rank)
  bcast_S1_S524288_0 : S1.BroadcastsInDim S524288 (![0] : Fin 1 → Fin S524288.rank)
  shapeCasts_S524288_S131072x4 : S524288.ShapeCasts S131072x4
  dot_S131072x256_S256x64_S131072x64_1_0_0_1_n_n_wf : DotDims.WF S131072x256 S256x64 S131072x64 [1] [0] [0] [1] [] []
  dot_S131072x64_S64x16_S131072x16_1_0_0_1_n_n_wf : DotDims.WF S131072x64 S64x16 S131072x16 [1] [0] [0] [1] [] []
  dot_S131072x16_S16x4_S131072x4_1_0_0_1_n_n_wf : DotDims.WF S131072x16 S16x4 S131072x4 [1] [0] [0] [1] [] []

variable [Facts₀]

def dot_S131072x256_S256x64_S131072x64_1_0_0_1_n_n : DotDims S131072x256 S256x64 S131072x64 where
  lhsContracting := [1]
  rhsContracting := [0]
  lhsNonContracting := [0]
  rhsNonContracting := [1]
  lhsBatch := []
  rhsBatch := []
  wf := dot_S131072x256_S256x64_S131072x64_1_0_0_1_n_n_wf
def dot_S131072x64_S64x16_S131072x16_1_0_0_1_n_n : DotDims S131072x64 S64x16 S131072x16 where
  lhsContracting := [1]
  rhsContracting := [0]
  lhsNonContracting := [0]
  rhsNonContracting := [1]
  lhsBatch := []
  rhsBatch := []
  wf := dot_S131072x64_S64x16_S131072x16_1_0_0_1_n_n_wf
def dot_S131072x16_S16x4_S131072x4_1_0_0_1_n_n : DotDims S131072x16 S16x4 S131072x4 where
  lhsContracting := [1]
  rhsContracting := [0]
  lhsNonContracting := [0]
  rhsNonContracting := [1]
  lhsBatch := []
  rhsBatch := []
  wf := dot_S131072x16_S16x4_S131072x4_1_0_0_1_n_n_wf

class Facts : Prop extends Facts₀ where

variable [Facts]
-- ==== Proof.Spec.lean ====
/-
  The function both programs compute, stated once over the extended reals.

  One row of the batch goes through three dense layers:
    first hidden layer   h1 l = max (Σ_i x i · w1 (i, l) + b1 (0, l)) 0          (64 units, rectified),
    second hidden layer  h2 k = tanh (Σ_l h1 l · w2 (l, k) + b2 (0, k))           (16 units),
    logits               z j  = Σ_k h2 k · w3 (k, j) + b3 (0, j)                 (4 classes),
  the zero of the rectifier kept as the float word `0x00000000` both programs print. A logit of row `r` depends on the
  input only through row `r`, so `logits`, the whole `[rows, 4]` array of them, is the same function whatever the number
  of rows: a block of rows of the input gives the same block of rows of the logits.

  The programs then normalise over ALL `131072 · 4` logits at once (a softmax of the flattened array): subtract the
  largest, exponentiate, divide by the total. `softmaxAll` is that chain of host operations applied to an arbitrary
  logits array; it is never opened, only applied to equal arguments.
-/
import Idealize.ShloMosaic.PureOps.Ideal
import Idealize.ShloMosaic.PureOps.Vector
import Idealize.ShloMosaic.Lib.ValueIdx

noncomputable section

open scoped BigOperators

namespace Cert.Mlp

open Idealize.ShloMosaic Idealize.ShloMosaic.ValueIdx

/-! ## The three layers on one row -/

section Row

variable (xr : Fin 256 → EReal)
  (w1 : (⟨2, ![256, 64]⟩ : Shape).Idx → EReal) (b1 : (⟨2, ![1, 64]⟩ : Shape).Idx → EReal)
  (w2 : (⟨2, ![64, 16]⟩ : Shape).Idx → EReal) (b2 : (⟨2, ![1, 16]⟩ : Shape).Idx → EReal)
  (w3 : (⟨2, ![16, 4]⟩ : Shape).Idx → EReal) (b3 : (⟨2, ![1, 4]⟩ : Shape).Idx → EReal)

/-- Unit `l` of the first hidden layer: the affine form of the row, rectified. -/
def hidden1 (l : Fin 64) : EReal :=
  max ((∑ i : Fin 256, xr i * w1 (ix2 i l)) + b1 (ix2 (0 : Fin 1) l)) (Ideal.ofBits .f32 0x00000000#32)

/-- Unit `k` of the second hidden layer: the affine form of the first layer, through `tanh`. -/
def hidden2 (k : Fin 16) : EReal :=
  Ideal.tanh ((∑ l : Fin 64, hidden1 xr w1 b1 l * w2 (ix2 l k)) + b2 (ix2 (0 : Fin 1) k))

/-- Logit `j` of the row: the affine form of the second layer. -/
def logitRow (j : Fin 4) : EReal :=
  (∑ k : Fin 16, hidden2 xr w1 b1 w2 b2 k * w3 (ix2 k j)) + b3 (ix2 (0 : Fin 1) j)

end Row

/-- The logits of every row of an input of `n` rows: entry `(r, j)` is logit `j` of row `r`. -/
def logits {n : Nat} (x : (⟨2, ![n, 256]⟩ : Shape).Idx → EReal)
    (w1 : (⟨2, ![256, 64]⟩ : Shape).Idx → EReal) (b1 : (⟨2, ![1, 64]⟩ : Shape).Idx → EReal)
    (w2 : (⟨2, ![64, 16]⟩ : Shape).Idx → EReal) (b2 : (⟨2, ![1, 16]⟩ : Shape).Idx → EReal)
    (w3 : (⟨2, ![16, 4]⟩ : Shape).Idx → EReal) (b3 : (⟨2, ![1, 4]⟩ : Shape).Idx → EReal) :
    (⟨2, ![n, 4]⟩ : Shape).Idx → EReal :=
  fun i => logitRow (fun k => x (ix2 (i 0) k)) w1 b1 w2 b2 w3 b3 (i 1)

theorem logits_apply {n : Nat} (x : (⟨2, ![n, 256]⟩ : Shape).Idx → EReal)
    (w1 : (⟨2, ![256, 64]⟩ : Shape).Idx → EReal) (b1 : (⟨2, ![1, 64]⟩ : Shape).Idx → EReal)
    (w2 : (⟨2, ![64, 16]⟩ : Shape).Idx → EReal) (b2 : (⟨2, ![1, 16]⟩ : Shape).Idx → EReal)
    (w3 : (⟨2, ![16, 4]⟩ : Shape).Idx → EReal) (b3 : (⟨2, ![1, 4]⟩ : Shape).Idx → EReal) (r : Fin n) (j : Fin 4) :
    logits x w1 b1 w2 b2 w3 b3 (ix2 r j) = logitRow (fun k => x (ix2 r k)) w1 b1 w2 b2 w3 b3 j := rfl

/-! ## The normalisation over the whole flattened array -/

/-- The shape facts the host operations of the normalisation cite: flattening `[131072, 4]` to `[524288]` and back,
    reducing the flat axis to a scalar, and broadcasting the scalar back over the flat axis. -/
structure NormFacts : Prop where
  flat : (⟨2, ![131072, 4]⟩ : Shape).ShapeCasts ⟨1, ![524288]⟩
  red : (⟨1, ![524288]⟩ : Shape).ReducesTo [0] ⟨0, ![]⟩
  pos : 0 < (⟨0, ![]⟩ : Shape).numel
  toOne : (⟨0, ![]⟩ : Shape).BroadcastsInDim ⟨1, ![1]⟩ (![] : Fin 0 → Fin (⟨1, ![1]⟩ : Shape).rank)
  toFlat : (⟨1, ![1]⟩ : Shape).BroadcastsInDim ⟨1, ![524288]⟩ (![0] : Fin 1 → Fin (⟨1, ![524288]⟩ : Shape).rank)
  unflat : (⟨1, ![524288]⟩ : Shape).ShapeCasts ⟨2, ![131072, 4]⟩

/-- The softmax of the flattened logits, reshaped back: with `z` the flat array, `m = max (-∞) (max-reduce z from -∞)`,
    `e = exp (z - m)` and `s = sum-reduce e from 0`, the result is `e / s`. The operations are the host's, at the ideal
    values, in the order and with the literal words both programs print. -/
def softmaxAll (h : NormFacts) (X : FVec Ideal ⟨2, ![131072, 4]⟩ .f32) : FVec Ideal ⟨2, ![131072, 4]⟩ .f32 :=
  shapeCast _ (Host.divf (F := Ideal)
      (Host.exp (F := Ideal) (subf (F := Ideal) (shapeCast _ X h.flat)
        (broadcastInDim ⟨1, ![524288]⟩ ![0] h.toFlat (broadcastInDim ⟨1, ![1]⟩ ![] h.toOne
          (maximumf (F := Ideal) (constant (F := Ideal) ⟨0, ![]⟩ .f32 0xFF800000#32)
            (Host.reduce (FloatOps.maximumf (F := Ideal) (φ := .f32)) (shapeCast _ X h.flat) (constant (F := Ideal) ⟨0, ![]⟩ .f32 0xFF800000#32) h.red h.pos))))))
      (broadcastInDim ⟨1, ![524288]⟩ ![0] h.toFlat (broadcastInDim ⟨1, ![1]⟩ ![] h.toOne
        (Host.reduceAdd (F := Ideal)
          (Host.exp (F := Ideal) (subf (F := Ideal) (shapeCast _ X h.flat)
            (broadcastInDim ⟨1, ![524288]⟩ ![0] h.toFlat (broadcastInDim ⟨1, ![1]⟩ ![] h.toOne
              (maximumf (F := Ideal) (constant (F := Ideal) ⟨0, ![]⟩ .f32 0xFF800000#32)
                (Host.reduce (FloatOps.maximumf (F := Ideal) (φ := .f32)) (shapeCast _ X h.flat) (constant (F := Ideal) ⟨0, ![]⟩ .f32 0xFF800000#32) h.red h.pos))))))
          (constant (F := Ideal) ⟨0, ![]⟩ .f32 0x00000000#32) h.red h.pos))))
    h.unflat

end Cert.Mlp

end
-- ==== Proof.RefLogits.lean ====
/-
  The reference program computes `softmaxAll (logits …)`.

  Its first thirteen host operations are the three dense layers over the whole batch: a `dot_general` of the input with
  each weight matrix (at the ideal values the finite sum over the contracted axis), the bias row broadcast over the rows
  and added, the rectifier as a maximum with a broadcast zero, `tanh`. Read at `(r, j)`, stage by stage, they are the row
  function `Cert.Mlp.logitRow` of row `r` of the input. The remaining fifteen operations are the normalisation
  `Cert.Mlp.softmaxAll` applied to that logits array, term for term.
-/
import proofs.«138310_j64235530878979_2_alg».proof.Proof.Gen.ReferenceIdeal.Read
import proofs.«138310_j64235530878979_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

variable (x0 : FVec Ideal S131072x256 .f32) (x1 : FVec Ideal S256x64 .f32) (x2 : FVec Ideal S1x64 .f32)
  (x3 : FVec Ideal S64x16 .f32) (x4 : FVec Ideal S1x16 .f32) (x5 : FVec Ideal S16x4 .f32) (x6 : FVec Ideal S1x4 .f32)

/-! ## The operand indices the generated reading names, by coordinates -/

theorem lidx0 (r : Fin 131072) (l : Fin 64) (i : Fin 256) : lidx_main_v0 (ix2 r l) i = ix2 r i :=
  funext fun a => by match a with | ⟨0, _⟩ => rfl | ⟨1, _⟩ => rfl
theorem ridx0 (r : Fin 131072) (l : Fin 64) (i : Fin 256) : ridx_main_v0 (ix2 r l) i = ix2 i l :=
  funext fun a => by match a with | ⟨0, _⟩ => rfl | ⟨1, _⟩ => rfl
theorem bidx1 (r : Fin 131072) (l : Fin 64) : idx_main_v1 (ix2 r l) = ix2 (0 : Fin 1) l :=
  funext fun a => by match a with | ⟨0, _⟩ => rfl | ⟨1, _⟩ => rfl
theorem lidx4 (r : Fin 131072) (k : Fin 16) (l : Fin 64) : lidx_main_v4 (ix2 r k) l = ix2 r l :=
  funext fun a => by match a with | ⟨0, _⟩ => rfl | ⟨1, _⟩ => rfl
theorem ridx4 (r : Fin 131072) (k : Fin 16) (l : Fin 64) : ridx_main_v4 (ix2 r k) l = ix2 l k :=
  funext fun a => by match a with | ⟨0, _⟩ => rfl | ⟨1, _⟩ => rfl
theorem bidx5 (r : Fin 131072) (k : Fin 16) : idx_main_v5 (ix2 r k) = ix2 (0 : Fin 1) k :=
  funext fun a => by match a with | ⟨0, _⟩ => rfl | ⟨1, _⟩ => rfl
theorem lidx8 (r : Fin 131072) (j : Fin 4) (k : Fin 16) : lidx_main_v8 (ix2 r j) k = ix2 r k :=
  funext fun a => by match a with | ⟨0, _⟩ => rfl | ⟨1, _⟩ => rfl
theorem ridx8 (r : Fin 131072) (j : Fin 4) (k : Fin 16) : ridx_main_v8 (ix2 r j) k = ix2 k j :=
  funext fun a => by match a with | ⟨0, _⟩ => rfl | ⟨1, _⟩ => rfl
theorem bidx9 (r : Fin 131072) (j : Fin 4) : idx_main_v9 (ix2 r j) = ix2 (0 : Fin 1) j :=
  funext fun a => by match a with | ⟨0, _⟩ => rfl | ⟨1, _⟩ => rfl

/-! ## The layers, read at an index -/

/-- The rectified first layer of the reference at `(r, l)` is unit `l` of the first hidden layer of row `r`. -/
theorem hidden1_apply (r : Fin 131072) (l : Fin 64) :
    val_main_v3 (F := Ideal) x0 x1 x2 (ix2 r l) = Cert.Mlp.hidden1 (fun i => x0 (ix2 r i)) x1 x2 l := by
  rw [val_main_v3_apply, val_main_v2_apply, val_main_v0_apply, val_main_v1_apply, val_main_call0_v0_apply,
    val_main_call0_cst_apply, bidx1]
  simp only [lidx0, ridx0]
  rfl

/-- The second layer of the reference at `(r, k)` is unit `k` of the second hidden layer of row `r`. -/
theorem hidden2_apply (r : Fin 131072) (k : Fin 16) :
    val_main_v7 (F := Ideal) x0 x1 x2 x3 x4 (ix2 r k) = Cert.Mlp.hidden2 (fun i => x0 (ix2 r i)) x1 x2 x3 x4 k := by
  rw [val_main_v7_apply, val_main_v6_apply, val_main_v4_apply, val_main_v5_apply, bidx5]
  simp only [lidx4, ridx4, hidden1_apply]
  rfl

/-- The reference's logits at `(r, j)` are logit `j` of row `r`. -/
theorem logit_apply (r : Fin 131072) (j : Fin 4) :
    val_main_v10 (F := Ideal) x0 x1 x2 x3 x4 x5 x6 (ix2 r j)
      = Cert.Mlp.logitRow (fun i => x0 (ix2 r i)) x1 x2 x3 x4 x5 x6 j := by
  rw [val_main_v10_apply, val_main_v8_apply, val_main_v9_apply, bidx9]
  simp only [lidx8, ridx8, hidden2_apply]
  rfl

/-- The reference's logits array is `Cert.Mlp.logits` of the arguments. -/
theorem logits_eq :
    val_main_v10 (F := Ideal) x0 x1 x2 x3 x4 x5 x6 = Cert.Mlp.logits (n := 131072) x0 x1 x2 x3 x4 x5 x6 := by
  funext i
  obtain ⟨r, j, rfl⟩ : ∃ (r : Fin 131072) (j : Fin 4), i = ix2 r j := ⟨i 0, i 1, eq_ix2 i⟩
  exact logit_apply x0 x1 x2 x3 x4 x5 x6 r j

/-! ## The whole result -/

/-- The shape facts of the normalisation, from the reference's own. -/
theorem normFacts : Cert.Mlp.NormFacts :=
  ⟨shapeCasts_S131072x4_S524288, reducesTo_S524288_S_d0, h_S_, bcast_S_S1, bcast_S1_S524288_0, shapeCasts_S524288_S131072x4⟩

/-- The reference's result, as its run states it, is the normalisation of its logits array. -/
theorem result_eq (m : (ℓ : Loc nD τ sig) → Buf (Elt Ideal) ℓ) (c : Dev nD) :
    Cert.ReferenceIdeal.Value.res_main_v22 (F := Ideal) m c
      = Cert.Mlp.softmaxAll normFacts (Cert.Mlp.logits (n := 131072)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6))) := by
  rw [← logits_eq]
  unfold Cert.ReferenceIdeal.Value.res_main_v22 Cert.Mlp.softmaxAll
  rfl

end Cert.ReferenceIdeal.RefValue

end
-- ==== Proof.LibPlainDot.lean ====
/-
  A plain matrix product read at an index, at the ideal values.

  The dimension numbers `DotDims.plain M K N` contract the second axis of an `M × K` left operand with the first axis of a
  `K × N` right operand. At the ideal instance a `tpu.matmul` with these numbers into the zero accumulator, and the
  host's `dot_general` with the same numbers, are both — at the result index `(p, q)` — the finite sum over `k : Fin K`
  of `lhs (p, k) * rhs (k, q)` on the extended reals. Nothing is assumed of `M`, `K`, `N` or of the operands' formats.

  The proof names the two operand indices coordinate by coordinate (`lhsIdx_plain`, `rhsIdx_plain`: a batch-free,
  single-contraction record sends `(p, q)` and `k` to `(p, k)` and `(k, q)`) and re-indexes the one-axis contraction shape
  by its coordinate.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : Nat)

/-- The one-axis contraction shape of a plain product, identified with `Fin K`. -/
abbrev contrFin : (DotDims.plain M K N).contr.Idx ≃ Fin K := contrEquiv1 (DotDims.plain M K N) K rfl rfl

/-- The left operand's index at result index `(p, q)` and contraction coordinate `k` is `(p, k)`. -/
theorem lhsIdx_plain (p : Fin M) (q : Fin N) (k : Fin K) :
    (DotDims.plain M K N).lhsIdx (ix2 p q) ((contrFin M K N).symm k) = ix2 p k := by
  funext a
  apply Fin.ext
  match a with
  | ⟨0, _⟩ =>
    show ((DotDims.plain M K N).lhsIdx (ix2 p q) ((contrFin M K N).symm k) (0 : Fin 2)).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    show ((DotDims.plain M K N).lhsIdx (ix2 p q) ((contrFin M K N).symm k) (1 : Fin 2)).val = k.val
    exact ((DotDims.plain M K N).lhsIdx_val_of_single rfl _ _).trans
      (contrEquiv1_symm_val (DotDims.plain M K N) K rfl rfl k)

/-- The right operand's index at result index `(p, q)` and contraction coordinate `k` is `(k, q)`. -/
theorem rhsIdx_plain (p : Fin M) (q : Fin N) (k : Fin K) :
    (DotDims.plain M K N).rhsIdx (ix2 p q) ((contrFin M K N).symm k) = ix2 k q := by
  funext a
  apply Fin.ext
  match a with
  | ⟨0, _⟩ =>
    show ((DotDims.plain M K N).rhsIdx (ix2 p q) ((contrFin M K N).symm k) (0 : Fin 2)).val = k.val
    exact ((DotDims.plain M K N).rhsIdx_val_of_single rfl _ _).trans
      (contrEquiv1_symm_val (DotDims.plain M K N) K rfl rfl k)
  | ⟨1, _⟩ =>
    show ((DotDims.plain M K N).rhsIdx (ix2 p q) ((contrFin M K N).symm k) (1 : Fin 2)).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)`, over `Fin K`. -/
theorem sum_plain (lhs : (⟨2, ![M, K]⟩ : Shape).Idx → EReal) (rhs : (⟨2, ![K, N]⟩ : Shape).Idx → EReal) (p : Fin M) (q : Fin N) :
    (∑ c : (DotDims.plain M K N).contr.Idx,
        lhs ((DotDims.plain M K N).lhsIdx (ix2 p q) c) * rhs ((DotDims.plain M K N).rhsIdx (ix2 p q) c))
      = ∑ k : Fin K, lhs (ix2 p k) * rhs (ix2 k q) := by
  rw [← Equiv.sum_comp (contrFin M K N).symm]
  exact Finset.sum_congr rfl fun k _ => by rw [lhsIdx_plain, rhsIdx_plain]

/-- A `tpu.matmul` with plain dimension numbers into the zero accumulator, at the ideal values, read at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain M K N lhs rhs p q)

/-- The host's `dot_general` with plain dimension numbers, at the ideal values, read at `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain M K N lhs rhs p q)

end Cert.Lib.PlainDot

end
-- ==== Proof.KernelBlock.lean ====
/-
  What the kernel's body stores for one block of 8192 rows.

  The body loads a block of rows of the input and the six small parameter arrays whole, and stores one value: three
  times a `tpu.matmul` into the zero accumulator (on operands rounded to bf16, which at the ideal values is no change),
  plus the bias row broadcast over the rows, then — for the first two layers — the rectifier (a maximum with the
  broadcast zero) or `tanh`. Read at `(p, j)` that stored value is `Cert.Mlp.logitRow` of row `p` of the block: each
  layer at an index is its affine form (`layer1_apply`, `layer2_apply`, `layer3_apply`), and the three compose.
-/
import proofs.«138310_j64235530878979_2_alg».proof.Proof.Gen.KernelIdeal.Skeleton
import proofs.«138310_j64235530878979_2_alg».proof.Proof.Spec
import proofs.«138310_j64235530878979_2_alg».proof.Proof.LibPlainDot
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.SL.Sem Idealize.ShloMosaic.ValueIdx

/-! ## The three matrix products at an index -/

theorem mm1 (a : FVec Ideal S8192x256 .bf16) (w : FVec Ideal S256x64 .bf16) (p : Fin 8192) (l : Fin 64) :
    matmul dot_S8192x256_S256x64_S8192x64_1_0_0_1_n_n none a w (constant S8192x64 .f32 0x00000000#32) (ix2 p l)
      = ∑ i : Fin 256, a (ix2 p i) * w (ix2 i l) :=
  Cert.Lib.PlainDot.matmul_zero_apply 8192 256 64 none a w p l

theorem mm2 (a : FVec Ideal S8192x64 .bf16) (w : FVec Ideal S64x16 .bf16) (p : Fin 8192) (k : Fin 16) :
    matmul dot_S8192x64_S64x16_S8192x16_1_0_0_1_n_n none a w (constant S8192x16 .f32 0x00000000#32) (ix2 p k)
      = ∑ l : Fin 64, a (ix2 p l) * w (ix2 l k) :=
  Cert.Lib.PlainDot.matmul_zero_apply 8192 64 16 none a w p k

theorem mm3 (a : FVec Ideal S8192x16 .bf16) (w : FVec Ideal S16x4 .bf16) (p : Fin 8192) (j : Fin 4) :
    matmul dot_S8192x16_S16x4_S8192x4_1_0_0_1_n_n none a w (constant S8192x4 .f32 0x00000000#32) (ix2 p j)
      = ∑ k : Fin 16, a (ix2 p k) * w (ix2 k j) :=
  Cert.Lib.PlainDot.matmul_zero_apply 8192 16 4 none a w p j

/-! ## Each layer at an index -/

/-- The first layer of the body at `(p, l)`: the affine form of row `p`, rectified. -/
theorem layer1_apply (a : FVec Ideal S8192x256 .f32) (w : FVec Ideal S256x64 .f32) (b : FVec Ideal S1x64 .f32)
    (p : Fin 8192) (l : Fin 64) :
    maximumf (addf (matmul dot_S8192x256_S256x64_S8192x64_1_0_0_1_n_n none (truncf .bf16 a bitsLt_bf16_f32)
        (truncf .bf16 w bitsLt_bf16_f32) (constant S8192x64 .f32 0x00000000#32))
        (broadcastTo S8192x64 b broadcasts_S1x64_S8192x64))
      (broadcast S8192x64 (Scalar.ofBits (F := Ideal) .f32 0x00000000#32)) (ix2 p l)
      = max ((∑ i : Fin 256, a (ix2 p i) * w (ix2 i l)) + b (ix2 (0 : Fin 1) l)) (Ideal.ofBits .f32 0x00000000#32) := by
  show max (matmul dot_S8192x256_S256x64_S8192x64_1_0_0_1_n_n none (truncf .bf16 a bitsLt_bf16_f32)
        (truncf .bf16 w bitsLt_bf16_f32) (constant S8192x64 .f32 0x00000000#32) (ix2 p l)
      + broadcastTo S8192x64 b broadcasts_S1x64_S8192x64 (ix2 p l)) (Ideal.ofBits .f32 0x00000000#32) = _
  rw [mm1, broadcastTo_1b_ab_apply]
  rfl

/-- The second layer of the body at `(p, k)`: the affine form of the first layer's row `p`, through `tanh`. -/
theorem layer2_apply (a : FVec Ideal S8192x64 .f32) (w : FVec Ideal S64x16 .f32) (b : FVec Ideal S1x16 .f32)
    (p : Fin 8192) (k : Fin 16) :
    tanh (addf (matmul dot_S8192x64_S64x16_S8192x16_1_0_0_1_n_n none (truncf .bf16 a bitsLt_bf16_f32)
        (truncf .bf16 w bitsLt_bf16_f32) (constant S8192x16 .f32 0x00000000#32))
        (broadcastTo S8192x16 b broadcasts_S1x16_S8192x16)) (ix2 p k)
      = Ideal.tanh ((∑ l : Fin 64, a (ix2 p l) * w (ix2 l k)) + b (ix2 (0 : Fin 1) k)) := by
  show Ideal.tanh (matmul dot_S8192x64_S64x16_S8192x16_1_0_0_1_n_n none (truncf .bf16 a bitsLt_bf16_f32)
        (truncf .bf16 w bitsLt_bf16_f32) (constant S8192x16 .f32 0x00000000#32) (ix2 p k)
      + broadcastTo S8192x16 b broadcasts_S1x16_S8192x16 (ix2 p k)) = _
  rw [mm2, broadcastTo_1b_ab_apply]
  rfl

/-- The third layer of the body at `(p, j)`: the affine form of the second layer's row `p`. -/
theorem layer3_apply (a : FVec Ideal S8192x16 .f32) (w : FVec Ideal S16x4 .f32) (b : FVec Ideal S1x4 .f32)
    (p : Fin 8192) (j : Fin 4) :
    addf (matmul dot_S8192x16_S16x4_S8192x4_1_0_0_1_n_n none (truncf .bf16 a bitsLt_bf16_f32)
        (truncf .bf16 w bitsLt_bf16_f32) (constant S8192x4 .f32 0x00000000#32))
        (broadcastTo S8192x4 b broadcasts_S1x4_S8192x4) (ix2 p j)
      = (∑ k : Fin 16, a (ix2 p k) * w (ix2 k j)) + b (ix2 (0 : Fin 1) j) := by
  show matmul dot_S8192x16_S16x4_S8192x4_1_0_0_1_n_n none (truncf .bf16 a bitsLt_bf16_f32)
        (truncf .bf16 w bitsLt_bf16_f32) (constant S8192x4 .f32 0x00000000#32) (ix2 p j)
      + broadcastTo S8192x4 b broadcasts_S1x4_S8192x4 (ix2 p j) = _
  rw [mm3, broadcastTo_1b_ab_apply]
  rfl

/-! ## The stored value -/

/-- The value the body stores, at `(p, j)`, is logit `j` of row `p` of the loaded block. -/
theorem pay_apply (v0 : FVec Ideal S8192x256 .f32) (v2 : FVec Ideal S256x64 .f32) (v5 : FVec Ideal S1x64 .f32)
    (v11 : FVec Ideal S64x16 .f32) (v14 : FVec Ideal S1x16 .f32) (v19 : FVec Ideal S16x4 .f32) (v22 : FVec Ideal S1x4 .f32)
    (p : Fin 8192) (j : Fin 4) :
    k0_pay1 (F := Ideal) v0 v2 v5 v11 v14 v19 v22 (ix2 p j)
      = Cert.Mlp.logitRow (fun i => v0 (ix2 p i)) v2 v5 v11 v14 v19 v22 j := by
  unfold k0_pay1
  refine (layer3_apply _ v19 v22 p j).trans ?_
  unfold Cert.Mlp.logitRow
  refine congrArg (· + v22 (ix2 (0 : Fin 1) j)) (Finset.sum_congr rfl fun k _ => congrArg (· * v19 (ix2 k j)) ?_)
  refine (layer2_apply _ v11 v14 p k).trans ?_
  unfold Cert.Mlp.hidden2
  refine congrArg Ideal.tanh (congrArg (· + v14 (ix2 (0 : Fin 1) k)) (Finset.sum_congr rfl fun l _ => congrArg (· * v11 (ix2 l k)) ?_))
  exact layer1_apply v0 v2 v5 p l

/-- The stored block is the logits of the loaded block of rows. -/
theorem pay_eq (v0 : FVec Ideal S8192x256 .f32) (v2 : FVec Ideal S256x64 .f32) (v5 : FVec Ideal S1x64 .f32)
    (v11 : FVec Ideal S64x16 .f32) (v14 : FVec Ideal S1x16 .f32) (v19 : FVec Ideal S16x4 .f32) (v22 : FVec Ideal S1x4 .f32) :
    k0_pay1 (F := Ideal) v0 v2 v5 v11 v14 v19 v22 = Cert.Mlp.logits (n := 8192) v0 v2 v5 v11 v14 v19 v22 := by
  funext i
  obtain ⟨p, j, rfl⟩ : ∃ (p : Fin 8192) (j : Fin 4), i = ix2 p j := ⟨i 0, i 1, eq_ix2 i⟩
  exact pay_apply v0 v2 v5 v11 v14 v19 v22 p j

end Cert.KernelIdeal.Hand

end
-- ==== Proof.KernelArray.lean ====
/-
  From the blocks the grid points write back to the whole logits array.

  The grid has 16 points; point `t` stages rows `8192·t … 8192·t + 8191` of the input (all 256 columns), stages each of
  the six parameter arrays whole, and writes its stored block back to the same rows of the `[131072, 4]` output. Since a
  logit of a row depends on the input only through that row, what point `t` writes back is block `t` of ONE array: the
  logits of all 131072 rows. The sixteen blocks tile the output (row `r` lies in block `r / 8192`), so after the region
  the output array is that logits array.
-/
import proofs.«138310_j64235530878979_2_alg».proof.Proof.Gen.KernelIdeal.Frame
import proofs.«138310_j64235530878979_2_alg».proof.Proof.KernelBlock
import Idealize.ShloMosaic.Lib.Pipeline.Value
import Idealize.ShloMosaic.Lib.Tactic

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps over the sixteen points: the input's and the output's row-block index is the point's number,
    every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The staged blocks, read off the arrays -/

/-- The input's block at point `t` is rows `8192·t …` of the input array. -/
theorem iblk0_apply (c : Dev nD) (t : Fin cfg0.N) (x : S8192x256.Idx) (k : S131072x256.Idx)
    (hk0 : (k 0).val = 8192 * t.val + (x 0).val) (hk1 : (k 1).val = (x 1).val) :
    (iblk m c 0 t : Vec Ideal S8192x256 .f32) x = (V m c main_arg0 : S131072x256.Idx → Elt Ideal .f32) k := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 8192 + 1 * (x 0).val = (k 0).val; rw [e0, hk0]; omega
  | ⟨1, _⟩ => show win0_0.index t (1 : Fin 2) * 256 + 1 * (x 1).val = (k 1).val; rw [e1, hk1]; omega

/-- Each parameter array is staged whole at every point. -/
theorem iblk1_eq (c : Dev nD) (t : Fin cfg0.N) :
    (iblk m c 1 t : Vec Ideal S256x64 .f32) = (V m c main_arg1 : S256x64.Idx → Elt Ideal .f32) := by
  obtain ⟨-, -, e0, e1, -⟩ := idx_facts t
  funext x
  unfold iblk
  rw [View.read_apply]
  show V m c main_arg1 _ = V m c main_arg1 x
  refine congrArg (V m c main_arg1) (funext fun a => Fin.ext ?_)
  match a with
  | ⟨0, _⟩ => show win0_1.index t (0 : Fin 2) * 256 + 1 * (x 0).val = (x 0).val; rw [e0]; omega
  | ⟨1, _⟩ => show win0_1.index t (1 : Fin 2) * 64 + 1 * (x 1).val = (x 1).val; rw [e1]; omega

theorem iblk2_eq (c : Dev nD) (t : Fin cfg0.N) :
    (iblk m c 2 t : Vec Ideal S1x64 .f32) = (V m c main_arg2 : S1x64.Idx → Elt Ideal .f32) := by
  obtain ⟨-, -, -, -, e0, e1, -⟩ := idx_facts t
  funext x
  unfold iblk
  rw [View.read_apply]
  show V m c main_arg2 _ = V m c main_arg2 x
  refine congrArg (V m c main_arg2) (funext fun a => Fin.ext ?_)
  match a with
  | ⟨0, _⟩ => show win0_2.index t (0 : Fin 2) * 1 + 1 * (x 0).val = (x 0).val; rw [e0]; omega
  | ⟨1, _⟩ => show win0_2.index t (1 : Fin 2) * 64 + 1 * (x 1).val = (x 1).val; rw [e1]; omega

theorem iblk3_eq (c : Dev nD) (t : Fin cfg0.N) :
    (iblk m c 3 t : Vec Ideal S64x16 .f32) = (V m c main_arg3 : S64x16.Idx → Elt Ideal .f32) := by
  obtain ⟨-, -, -, -, -, -, e0, e1, -⟩ := idx_facts t
  funext x
  unfold iblk
  rw [View.read_apply]
  show V m c main_arg3 _ = V m c main_arg3 x
  refine congrArg (V m c main_arg3) (funext fun a => Fin.ext ?_)
  match a with
  | ⟨0, _⟩ => show win0_3.index t (0 : Fin 2) * 64 + 1 * (x 0).val = (x 0).val; rw [e0]; omega
  | ⟨1, _⟩ => show win0_3.index t (1 : Fin 2) * 16 + 1 * (x 1).val = (x 1).val; rw [e1]; omega

theorem iblk4_eq (c : Dev nD) (t : Fin cfg0.N) :
    (iblk m c 4 t : Vec Ideal S1x16 .f32) = (V m c main_arg4 : S1x16.Idx → Elt Ideal .f32) := by
  obtain ⟨-, -, -, -, -, -, -, -, e0, e1, -⟩ := idx_facts t
  funext x
  unfold iblk
  rw [View.read_apply]
  show V m c main_arg4 _ = V m c main_arg4 x
  refine congrArg (V m c main_arg4) (funext fun a => Fin.ext ?_)
  match a with
  | ⟨0, _⟩ => show win0_4.index t (0 : Fin 2) * 1 + 1 * (x 0).val = (x 0).val; rw [e0]; omega
  | ⟨1, _⟩ => show win0_4.index t (1 : Fin 2) * 16 + 1 * (x 1).val = (x 1).val; rw [e1]; omega

theorem iblk5_eq (c : Dev nD) (t : Fin cfg0.N) :
    (iblk m c 5 t : Vec Ideal S16x4 .f32) = (V m c main_arg5 : S16x4.Idx → Elt Ideal .f32) := by
  obtain ⟨-, -, -, -, -, -, -, -, -, -, e0, e1, -⟩ := idx_facts t
  funext x
  unfold iblk
  rw [View.read_apply]
  show V m c main_arg5 _ = V m c main_arg5 x
  refine congrArg (V m c main_arg5) (funext fun a => Fin.ext ?_)
  match a with
  | ⟨0, _⟩ => show win0_5.index t (0 : Fin 2) * 16 + 1 * (x 0).val = (x 0).val; rw [e0]; omega
  | ⟨1, _⟩ => show win0_5.index t (1 : Fin 2) * 4 + 1 * (x 1).val = (x 1).val; rw [e1]; omega

theorem iblk6_eq (c : Dev nD) (t : Fin cfg0.N) :
    (iblk m c 6 t : Vec Ideal S1x4 .f32) = (V m c main_arg6 : S1x4.Idx → Elt Ideal .f32) := by
  obtain ⟨-, -, -, -, -, -, -, -, -, -, -, -, e0, e1, -⟩ := idx_facts t
  funext x
  unfold iblk
  rw [View.read_apply]
  show V m c main_arg6 _ = V m c main_arg6 x
  refine congrArg (V m c main_arg6) (funext fun a => Fin.ext ?_)
  match a with
  | ⟨0, _⟩ => show win0_6.index t (0 : Fin 2) * 1 + 1 * (x 0).val = (x 0).val; rw [e0]; omega
  | ⟨1, _⟩ => show win0_6.index t (1 : Fin 2) * 4 + 1 * (x 1).val = (x 1).val; rw [e1]; omega

/-! ## What a point writes back -/

/-- The logits of all rows, of the arrays as the region finds them. -/
abbrev allLogits (c : Dev nD) : S131072x4.Idx → Elt Ideal .f32 :=
  Cert.Mlp.logits (n := 131072) (V m c main_arg0) (V m c main_arg1) (V m c main_arg2) (V m c main_arg3) (V m c main_arg4)
    (V m c main_arg5) (V m c main_arg6)

/-- Where the output's block at point `t` sits in the output array: rows `8192·t …`, the four columns. -/
theorem emb7 (t : Fin cfg0.N) (y : S8192x4.Idx) :
    ((((cfg0.win 7).blk t).view.emb y) 0).val = 8192 * t.val + (y 0).val
      ∧ ((((cfg0.win 7).blk t).view.emb y) 1).val = (y 1).val := by
  obtain ⟨-, -, -, -, -, -, -, -, -, -, -, -, -, -, e0, e1⟩ := idx_facts t
  constructor
  · show win0_7.index t (0 : Fin 2) * 8192 + 1 * (y 0).val = _; rw [e0]; omega
  · show win0_7.index t (1 : Fin 2) * 4 + 1 * (y 1).val = _; rw [e1]; omega

/-- Point `t` writes back block `t` of the logits of all rows. -/
theorem flushed_eq (c : Dev nD) (t : Fin cfg0.N) :
    (dats m 0 c).flushed 7 t = ((cfg0.win 7).blk t).view.read (Elt Ideal) (allLogits m c) := by
  show (cfg0.win 7).cut (grid0.coords t) ((dats m 0 c).after 7 t) = _
  rw [after0_7]
  unfold out0_7
  rw [View.canon_unit_zero hz]
  simp only [View.ld_unit_zero (S := S8192x256) hz, View.ld_unit_zero (S := S256x64) hz, View.ld_unit_zero (S := S1x64) hz,
    View.ld_unit_zero (S := S64x16) hz, View.ld_unit_zero (S := S1x16) hz, View.ld_unit_zero (S := S16x4) hz,
    View.ld_unit_zero (S := S1x4) hz]
  rw [pay_eq, iblk1_eq, iblk2_eq, iblk3_eq, iblk4_eq, iblk5_eq, iblk6_eq]
  funext y
  obtain ⟨h0, h1⟩ := emb7 t y
  show Cert.Mlp.logitRow (fun k => (iblk m c 0 t : Vec Ideal S8192x256 .f32) (ix2 (y 0) k)) (V m c main_arg1) (V m c main_arg2)
      (V m c main_arg3) (V m c main_arg4) (V m c main_arg5) (V m c main_arg6) (y 1)
    = Cert.Mlp.logitRow (fun k => (V m c main_arg0 : S131072x256.Idx → Elt Ideal .f32) (ix2 ((((cfg0.win 7).blk t).view.emb y) 0) k))
      (V m c main_arg1) (V m c main_arg2) (V m c main_arg3) (V m c main_arg4) (V m c main_arg5) (V m c main_arg6)
      ((((cfg0.win 7).blk t).view.emb y) 1)
  have e1 : ((((cfg0.win 7).blk t).view.emb y) 1 : Fin 4) = (y 1 : Fin 4) := Fin.ext h1
  have e0 : (fun k : Fin 256 => (iblk m c 0 t : Vec Ideal S8192x256 .f32) (ix2 (y 0) k))
      = fun k : Fin 256 => (V m c main_arg0 : S131072x256.Idx → Elt Ideal .f32) (ix2 ((((cfg0.win 7).blk t).view.emb y) 0) k) :=
    funext fun k => iblk0_apply m c t (ix2 (y 0) k) (ix2 ((((cfg0.win 7).blk t).view.emb y) 0) k) h0 rfl
  rw [e0, e1]

/-! ## The array after the region -/

/-- An index of the output array is in point `t`'s block iff each coordinate is in the block's range on its axis. -/
theorem mem_blk (t : Fin cfg0.N) (i : S131072x4.Idx) :
    i ∈ ((cfg0.win 7).blk t).view.set ↔ ∀ a : Fin 2, win0_7.index t a * S8192x4.size a ≤ (i a).val
      ∧ (i a).val < win0_7.index t a * S8192x4.size a + S8192x4.size a := by
  show i ∈ ((View.whole main_v0).slice (win0_7.rect t)).set ↔ _
  rw [View.set_slice_whole, Rect.mem_set_unit]
  exact Iff.rfl

/-- Every row lies in the block of the point `row / 8192`. -/
theorem cover (i : S131072x4.Idx) :
    ∃ t : Fin cfg0.N, (cfg0.win 7).flush t = true ∧ i ∈ ((cfg0.win 7).blk t).view.set := by
  have hi0 : (i 0).val < 131072 := (i 0).isLt
  have hi1 : (i 1).val < 4 := (i 1).isLt
  have hN : cfg0.N = 16 := N_0
  obtain ⟨t, ht⟩ : ∃ t : Fin cfg0.N, t.val = (i 0).val / 8192 := ⟨⟨(i 0).val / 8192, by rw [hN]; omega⟩, rfl⟩
  obtain ⟨-, -, -, -, -, -, -, -, -, -, -, -, -, -, e0, e1⟩ := idx_facts t
  refine ⟨t, flush0_7 t, ?_⟩
  rw [mem_blk]
  intro a
  match a with
  | ⟨0, _⟩ =>
    show win0_7.index t (0 : Fin 2) * 8192 ≤ (i 0).val ∧ (i 0).val < win0_7.index t (0 : Fin 2) * 8192 + 8192
    rw [e0, ht]; omega
  | ⟨1, _⟩ =>
    show win0_7.index t (1 : Fin 2) * 4 ≤ (i 1).val ∧ (i 1).val < win0_7.index t (1 : Fin 2) * 4 + 4
    rw [e1]; omega

/-- After the region the output array holds the logits of all rows. -/
theorem final (c : Dev nD) : (dats m 0 c).arrAt 7 cfg0.N = allLogits m c :=
  (dats m 0 c).arrAt_eq_of_cover 7 (allLogits m c) (fun t _ => flushed_eq m c t) cover

end Cert.KernelIdeal.Hand

end
-- ==== Proof.KernelRun.lean ====
/-
  The kernel program's run, read as a value.

  The program is one region followed by fifteen host operations. The generated frame run states, for every final state,
  that the region's output array holds what the proof data computes (the logits of all rows, by `final`) and that every
  other unscoped buffer holds what the host operations after the region leave there. Those fifteen operations, applied to
  the region's output, are the normalisation `Cert.Mlp.softmaxAll`, term for term; so the program's result is
  `softmaxAll (logits …)` of the argument arrays, which end unchanged.
-/
import proofs.«138310_j64235530878979_2_alg».proof.Proof.Gen.KernelIdeal.Frame
import proofs.«138310_j64235530878979_2_alg».proof.Proof.KernelArray
import Idealize.ShloMosaic.Lib.StableHlo.Run
import Idealize.ShloMosaic.Lib.Pipeline.Value

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The shape facts of the normalisation, from the kernel program's own. -/
theorem normFacts : Cert.Mlp.NormFacts :=
  ⟨shapeCasts_S131072x4_S524288, reducesTo_S524288_S_d0, h_S_, bcast_S_S1, bcast_S1_S524288_0, shapeCasts_S524288_S131072x4⟩

/-- The result buffer is neither scoped nor an array of the region. -/
theorem result_mem_rest : main_v12 ∈ Pipeline.restRefs sig (cfgs 0).spec :=
  Pipeline.mem_restRefs_of main_v12 rfl (by decide)

/-- The host operations after the region leave, in the result buffer, the normalisation of the region's output array. -/
theorem tail_eq (c : Dev nD) :
    Pipeline.afterTail₀ cfgs (dats m) 0 (V0 m) [hostOps1] c main_v12
      = Cert.Mlp.softmaxAll normFacts ((dats m 0 c).arrAt 7 cfg0.N) := by
  have e := Pipeline.withArrays_arr spec0 launch0.win.arr_inj c (V0 m c) (fun w => (dats m 0 c).arrAt w cfg0.N) 7
  unfold Pipeline.afterTail₀
  show StableHlo.after hostOps1 _ (Proc.devRef .tc main_v12) = _
  after_results
  rw [show Pipeline.withArrays (cfgs 0).spec c (V0 m c) (fun w => (dats m 0 c).arrAt w (cfgs 0).N) (Proc.devRef .tc main_v0)
      = (dats m 0 c).arrAt 7 cfg0.N from e]
  unfold Cert.Mlp.softmaxAll
  rfl

/-- The logits of all rows, of the argument arrays themselves. -/
abbrev argLogits (c : Dev nD) : S131072x4.Idx → Elt Ideal .f32 :=
  Cert.Mlp.logits (n := 131072) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))

/-- The region finds the argument arrays as launched, so the logits it leaves are those of the arguments. -/
theorem allLogits_eq (c : Dev nD) : allLogits m c = argLogits m c := by
  unfold allLogits argLogits
  rw [V_main_arg0, V_main_arg1, V_main_arg2, V_main_arg3, V_main_arg4, V_main_arg5, V_main_arg6]

/-- Every weakly fair execution of the kernel program terminates with the result at the normalised logits of the
    arguments and the arguments unchanged. -/
theorem run : θ_run defs (onTc (τ := τ) (main (F := Ideal))) ⟨m, fun _ => 0, ρ⟩ fun r => ∀ c : Dev nD,
      r.2.mem ((c.tc : Thread nD τ).loc main_v12) = Cert.Mlp.softmaxAll normFacts (argLogits m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v12 result_mem_rest).trans ((tail_eq m c).trans (by rw [final, allLogits_eq])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Hand

end
-- ==== Proof.lean ====
/-
  A three-layer perceptron over a batch of 131072 rows, followed by a softmax over all `131072 · 4` logits at once: the
  kernel program (the three layers fused in one region tiled over blocks of 8192 rows, the normalisation on the host after
  it) against the reference (everything on the host).

  At the ideal values both programs compute the same function of the seven argument arrays,
  `Cert.Mlp.softmaxAll (Cert.Mlp.logits x w1 b1 w2 b2 w3 b3)` (Proof/Spec.lean):
  * the reference's thirteen layer operations, read at an index, are the row function of the logits, and its remaining
    fifteen are the normalisation (Proof/RefLogits.lean, over the generated reading of the reference's run);
  * the kernel's stored block is the logits of its block of rows — the rounding of the matrix products' operands to bf16
    is the identity on the extended reals, and a product into the zero accumulator is the plain finite sum, the same sum
    the host's `dot_general` is (Proof/KernelBlock.lean, Proof/LibPlainDot.lean);
  * a row's logits depend on that row only, so the sixteen blocks written back are the blocks of one array, and they tile
    the output (Proof/KernelArray.lean);
  * the host operations after the region are the same normalisation applied to that array (Proof/KernelRun.lean).
  No algebraic law is needed beyond reading each operation at an index, and the finiteness of the inputs is never used.
  The three frames are the generated ones (the reference's is its generated run with the result dropped); the
  idealization rewrote no operation, so `preserves` is trivial.
-/
import proofs.«138310_j64235530878979_2_alg».proof.Defs
import proofs.«138310_j64235530878979_2_alg».proof.Proof.Gen.Kernel
import proofs.«138310_j64235530878979_2_alg».proof.Proof.Gen.Kernel.Frame
import proofs.«138310_j64235530878979_2_alg».proof.Proof.Gen.KernelIdeal
import proofs.«138310_j64235530878979_2_alg».proof.Proof.Gen.KernelIdeal.Frame
import proofs.«138310_j64235530878979_2_alg».proof.Proof.Gen.ReferenceIdeal
import proofs.«138310_j64235530878979_2_alg».proof.Proof.Gen.ReferenceIdeal.Run
import proofs.«138310_j64235530878979_2_alg».proof.Proof.Gen.ReferenceIdeal.Read
import proofs.«138310_j64235530878979_2_alg».proof.Proof.Gen.Pre_finite_inputs
import proofs.«138310_j64235530878979_2_alg».proof.Proof.RefLogits
import proofs.«138310_j64235530878979_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the normalised logits of the (agreeing) arguments. -/
theorem algebraic : Cert.algebraic_KernelIdeal_ReferenceIdeal := by
  intro m ρ m' ρ' _ hagree
  refine ⟨fun c => Cert.Mlp.softmaxAll Cert.KernelIdeal.Hand.normFacts (Cert.KernelIdeal.Hand.argLogits m c),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2.1,
    (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
